-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3x64 : Shape := ⟨3, ![50000, 3, 64]⟩
abbrev S500000x4 : Shape := ⟨2, ![500000, 4]⟩
abbrev S500000x32 : Shape := ⟨2, ![500000, 32]⟩
abbrev S2x500000 : Shape := ⟨2, ![2, 500000]⟩
abbrev S32x64 : Shape := ⟨2, ![32, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3x64 : S_.BroadcastsInDim S50000x3x64 (![] : Fin 0 → Fin S50000x3x64.rank)
  reducesTo_S50000x3x64_S_d0_1_2 : S50000x3x64.ReducesTo [0, 1, 2] S_
  bcast_S_S500000x4 : S_.BroadcastsInDim S500000x4 (![] : Fin 0 → Fin S500000x4.rank)
  reducesTo_S500000x4_S_d0_1 : S500000x4.ReducesTo [0, 1] S_
  bcast_S_S500000x32 : S_.BroadcastsInDim S500000x32 (![] : Fin 0 → Fin S500000x32.rank)
  reducesTo_S500000x32_S_d0_1 : S500000x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg12 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg8 : FVec F S64 .f32) (main_arg9 : FVec F S32x64 .f32) (main_arg10 : FVec F S64 .f32) (main_arg11 : FVec F S64x64 .f32) (main_arg12 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S32x64 .f32 := Host.absf main_arg9
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_v48 main_v49 main_v50

def fn_part1 {F : FTy → Type} [FloatOps F] (main_arg5 : FVec F S32x64 .f32) (main_arg6 : FVec F S64 .f32) (main_arg7 : FVec F S64x64 .f32) (main_arg8 : FVec F S64 .f32) (main_arg9 : FVec F S32x64 .f32) (main_arg10 : FVec F S64 .f32) (main_arg11 : FVec F S64x64 .f32) (main_arg12 : FVec F S64 .f32) (main_v13 : IVec S_ 1) (main_v16 : IVec S500000x32 1) : IVec S_ 1 :=
  let main_c_5 : IVec S_ 1 := constantI S_ 1 1#1
  let main_v17 : IVec S_ 1 := (fun x v => Host.reduce IntOp.andi x v reducesTo_S500000x32_S_d0_1 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x64 .f32) (main_arg1 : FVec F S50000x3x64 .f32) (main_arg2 : FVec F S500000x4 .f32) (main_arg3 : FVec F S500000x32 .f32) (main_arg4 : IVec S2x500000 32) (main_arg5 : FVec F S32x64 .f32) (main_arg6 : FVec F S64 .f32) (main_arg7 : FVec F S64x64 .f32) (main_arg8 : FVec F S64 .f32) (main_arg9 : FVec F S32x64 .f32) (main_arg10 : FVec F S64 .f32) (main_arg11 : FVec F S64x64 .f32) (main_arg12 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3x64 .f32 := Host.absf main_arg1
  let main_cst_0 : FVec F S_ .f32 := constant S_ .f32 0x7F800000#32
  let main_v5 : FVec F S50000x3x64 .f32 := broadcastInDim S50000x3x64 ![] bcast_S_S50000x3x64 main_cst_0
  let main_v6 : IVec S50000x3x64 1 := cmpf .olt main_v4 main_v5
  let main_c_1 : IVec S_ 1 := constantI S_ 1 1#1
  let main_v7 : IVec S_ 1 := (fun x v => Host.reduce IntOp.andi x v reducesTo_S50000x3x64_S_d0_1_2 h_S_) main_v6 main_c_1
  let main_v8 : IVec S_ 1 := andi main_v3 main_v7
  let main_v9 : FVec F S500000x4 .f32 := Host.absf main_arg2
  let main_cst_2 : FVec F S_ .f32 := constant S_ .f32 0x7F800000#32
  let main_v10 : FVec F S500000x4 .f32 := broadcastInDim S500000x4 ![] bcast_S_S500000x4 main_cst_2
  let main_v11 : IVec S500000x4 1 := cmpf .olt main_v9 main_v10
  let main_c_3 : IVec S_ 1 := constantI S_ 1 1#1
  let main_v12 : IVec S_ 1 := (fun x v => Host.reduce IntOp.andi x v reducesTo_S500000x4_S_d0_1 h_S_) main_v11 main_c_3
  let main_v13 : IVec S_ 1 := andi main_v8 main_v12
  let main_v14 : FVec F S500000x32 .f32 := Host.absf main_arg3
  let main_cst_4 : FVec F S_ .f32 := constant S_ .f32 0x7F800000#32
  let main_v15 : FVec F S500000x32 .f32 := broadcastInDim S500000x32 ![] bcast_S_S500000x32 main_cst_4
  let main_v16 : IVec S500000x32 1 := cmpf .olt main_v14 main_v15
  fn_part1 (F := F) main_arg5 main_arg6 main_arg7 main_arg8 main_arg9 main_arg10 main_arg11 main_arg12 main_v13 main_v16
-- ==== Kernel.lean ====
abbrev S50000x64 : Shape := ⟨2, ![50000, 64]⟩
abbrev S50000x3x64 : Shape := ⟨3, ![50000, 3, 64]⟩
abbrev S500000x4 : Shape := ⟨2, ![500000, 4]⟩
abbrev S500000x32 : Shape := ⟨2, ![500000, 32]⟩
abbrev S2x500000 : Shape := ⟨2, ![2, 500000]⟩
abbrev S32x64 : Shape := ⟨2, ![32, 64]⟩
abbrev S64 : Shape := ⟨1, ![64]⟩
abbrev S64x64 : Shape := ⟨2, ![64, 64]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x64 : Shape := ⟨2, ![500000, 64]⟩
abbrev S500000x3x64 : Shape := ⟨3, ![500000, 3, 64]⟩
abbrev S2000x32 : Shape := ⟨2, ![2000, 32]⟩
abbrev S2000x64 : Shape := ⟨2, ![2000, 64]⟩
abbrev S2000x3x64 : Shape := ⟨3, ![2000, 3, 64]⟩
abbrev S1x64 : Shape := ⟨2, ![1, 64]⟩
abbrev S2000x1x64 : Shape := ⟨3, ![2000, 1, 64]⟩

abbrev nBuf : Space → Nat
  | .hbm => 45
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S50000x3x64, .f32⟩
  | .hbm, ⟨2, _⟩ => ⟨S500000x4, .f32⟩
  | .hbm, ⟨3, _⟩ => ⟨S500000x32, .f32⟩
  | .hbm, ⟨4, _⟩ => ⟨S2x500000, .i32⟩
  | .hbm, ⟨5, _⟩ => ⟨S32x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S32x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x500000, .i32⟩
  | .hbm, ⟨14, _⟩ => ⟨S500000, .i32⟩
  | .hbm, ⟨15, _⟩ => ⟨S1x500000, .i32⟩
  | .hbm, ⟨16, _⟩ => ⟨S500000, .i32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x64, .f32⟩
  | .hbm, ⟨26, _⟩ => ⟨S_, .i32⟩
  | .hbm, ⟨27, _⟩ => ⟨S500000, .i32⟩
  | .hbm, ⟨28, _⟩ => ⟨S500000, .i1⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S500000, .i32⟩
  | .hbm, ⟨33, _⟩ => ⟨S500000x1, .i32⟩
  | .hbm, ⟨34, _⟩ => ⟨S500000x3x64, .f32⟩
  | .hbm, ⟨35, _⟩ => ⟨S500000x64, .f32⟩
  | .hbm, ⟨36, _⟩ => ⟨S500000x3x64, .f32⟩
  | .hbm, ⟨37, _⟩ => ⟨S_, .f32⟩
  | .hbm, ⟨38, _⟩ => ⟨S50000x64, .f32⟩
  | .hbm, ⟨39, _⟩ => ⟨S500000x1, .i32⟩
  | .hbm, ⟨40, _⟩ => ⟨S50000x64, .f32⟩
  | .hbm, ⟨41, _⟩ => ⟨S_, .f32⟩
  | .hbm, ⟨42, _⟩ => ⟨S50000x3x64, .f32⟩
  | .hbm, ⟨43, _⟩ => ⟨S500000x1, .i32⟩
  | .hbm, ⟨44, _⟩ => ⟨S50000x3x64, .f32⟩
  | .local _ .vmem, ⟨0, _⟩ => ⟨S2000x32, .f32⟩
  | .local _ .vmem, ⟨1, _⟩ => ⟨S2000x32, .f32⟩
  | .local _ .vmem, ⟨2, _⟩ => ⟨S2000x64, .f32⟩
  | .local _ .vmem, ⟨3, _⟩ => ⟨S2000x64, .f32⟩
  | .local _ .vmem, ⟨4, _⟩ => ⟨S2000x3x64, .f32⟩
  | .local _ .vmem, ⟨5, _⟩ => ⟨S2000x3x64, .f32⟩
  | .local _ .vmem, ⟨6, _⟩ => ⟨S32x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S32x64, .f32⟩
  | .local _ .vmem, ⟨11, _⟩ => ⟨S64, .f32⟩
  | .local _ .vmem, ⟨12, _⟩ => ⟨S64x64, .f32⟩
  | .local _ .vmem, ⟨13, _⟩ => ⟨S64, .f32⟩
  | .local _ .vmem, ⟨14, _⟩ => ⟨S2000x64, .f32⟩
  | .local _ .vmem, ⟨15, _⟩ => ⟨S2000x64, .f32⟩
  | .local _ .vmem, ⟨16, _⟩ => ⟨S2000x3x64, .f32⟩
  | .local _ .vmem, ⟨17, _⟩ => ⟨S2000x3x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x3x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x3x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  inb_S2000x32_S2000x32_0_0 : ∀ a, (![0, 0] : Fin 2 → Nat) a + S2000x32.size a ≤ S2000x32.size a
  h_S2000x32 : 0 < S2000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x3x64_S2000x3x64_0_0_0 : ∀ a, (![0, 0, 0] : Fin 3 → Nat) a + S2000x3x64.size a ≤ S2000x3x64.size a
  h_S2000x3x64 : 0 < S2000x3x64.numel
  shapeCasts_S2000x3x64_S2000x3x64 : S2000x3x64.ShapeCasts S2000x3x64
  shapeCasts_S2000x64_S2000x1x64 : S2000x64.ShapeCasts S2000x1x64
  broadcasts_S2000x1x64_S2000x3x64 : S2000x1x64.Broadcasts S2000x3x64
  bcast_S_S50000x64 : S_.BroadcastsInDim S50000x64 (![] : Fin 0 → Fin S50000x64.rank)
  bcast_S_S50000x3x64 : S_.BroadcastsInDim S50000x3x64 (![] : Fin 0 → Fin S50000x3x64.rank)
  gather_S50000x64_S500000x1_S500000x64_1_0_n_n_0_1_164_wf : GatherDims.WF S50000x64 S500000x1 S500000x64 [1] [0] [] [0] [] 1 ![1, 64]
  gather_S50000x3x64_S500000x1_S500000x3x64_12_0_n_n_0_1_1364_wf : GatherDims.WF S50000x3x64 S500000x1 S500000x3x64 [1, 2] [0] [] [0] [] 1 ![1, 3, 64]
  dot_S2000x32_S32x64_S2000x64_1_0_0_1_n_n_wf : DotDims.WF S2000x32 S32x64 S2000x64 [1] [0] [0] [1] [] []
  dot_S2000x64_S64x64_S2000x64_1_0_0_1_n_n_wf : DotDims.WF S2000x64 S64x64 S2000x64 [1] [0] [0] [1] [] []
  scatter_S50000x64_S500000x1_S500000x64_1_0_0_1_wf : ScatterDims.WF S50000x64 S500000x1 S500000x64 [1] [0] [0] 1
  scatter_S50000x3x64_S500000x1_S500000x3x64_12_0_0_1_wf : ScatterDims.WF S50000x3x64 S500000x1 S500000x3x64 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S500000x32.size a
  hwx0_0 : ∀ i : grid0.Coords, EltTy.bits .f32 = 32 ∨ (Rect.block (s := S500000x32) S2000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S500000x64.size a
  hwx0_1 : ∀ i : grid0.Coords, EltTy.bits .f32 = 32 ∨ (Rect.block (s := S500000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x3x64.size a ≤ S500000x3x64.size a
  hwx0_2 : ∀ i : grid0.Coords, EltTy.bits .f32 = 32 ∨ (Rect.block (s := S500000x3x64) S2000x3x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x64.size a ≤ S32x64.size a
  hwx0_7 : ∀ i : grid0.Coords, EltTy.bits .f32 = 32 ∨ (Rect.block (s := S32x64) S32x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x64.size a ≤ S500000x64.size a
  hwx0_11 : ∀ i : grid0.Coords, EltTy.bits .f32 = 32 ∨ (Rect.block (s := S500000x64) S2000x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x3x64.size a ≤ S500000x3x64.size a
  hwx0_12 : ∀ i : grid0.Coords, EltTy.bits .f32 = 32 ∨ (Rect.block (s := S500000x3x64) S2000x3x64.size (cc0_transform_12 i) (hinb0_12 i)).WholeWords (EltTy.packing .f32)

variable [Facts₀]

def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def gather_S50000x3x64_S500000x1_S500000x3x64_12_0_n_n_0_1_1364 : GatherDims S50000x3x64 S500000x1 S500000x3x64 where
  offsetDims := [1, 2]
  collapsedSliceDims := [0]
  operandBatchingDims := []
  startIndicesBatchingDims := []
  startIndexMap := [0]
  indexVectorDim := 1
  sliceSizes := ![1, 3, 64]
  wf := gather_S50000x3x64_S500000x1_S500000x3x64_12_0_n_n_0_1_1364_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def scatter_S50000x3x64_S500000x1_S500000x3x64_12_0_0_1 : ScatterDims S50000x3x64 S500000x1 S500000x3x64 where
  updateWindowDims := [1, 2]
  insertedWindowDims := [0]
  scatterDimsToOperandDims := [0]
  indexVectorDim := 1
  wf := scatter_S50000x3x64_S500000x1_S500000x3x64_12_0_0_1_wf

abbrev win0_0 : Pipeline.Window sig grid0 :=
  Pipeline.Window.ofSpec (Memref.whole main_arg3) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x3x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S32x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18_0) S2000x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v18_1) S2000x3x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S50000x64 : Shape := ⟨2, ![50000, 64]⟩
abbrev S50000x3x64 : Shape := ⟨3, ![50000, 3, 64]⟩
abbrev S500000x4 : Shape := ⟨2, ![500000, 4]⟩
abbrev S500000x32 : Shape := ⟨2, ![500000, 32]⟩
abbrev S2x500000 : Shape := ⟨2, ![2, 500000]⟩
abbrev S32x64 : Shape := ⟨2, ![32, 64]⟩
abbrev S64 : Shape := ⟨1, ![64]⟩
abbrev S64x64 : Shape := ⟨2, ![64, 64]⟩
abbrev S1x500000 : Shape := ⟨2, ![1, 500000]⟩
abbrev S500000 : Shape := ⟨1, ![500000]⟩
abbrev S500000x64 : Shape := ⟨2, ![500000, 64]⟩
abbrev S1x64 : Shape := ⟨2, ![1, 64]⟩
abbrev S_ : Shape := ⟨0, ![]⟩
abbrev S500000x1 : Shape := ⟨2, ![500000, 1]⟩
abbrev S500000x3x64 : Shape := ⟨3, ![500000, 3, 64]⟩
abbrev S500000x1x64 : Shape := ⟨3, ![500000, 1, 64]⟩

abbrev nBuf : Space → Nat
  | .hbm => 81
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x3x64, .f32⟩
  | .hbm, ⟨2, _⟩ => ⟨S500000x4, .f32⟩
  | .hbm, ⟨3, _⟩ => ⟨S500000x32, .f32⟩
  | .hbm, ⟨4, _⟩ => ⟨S2x500000, .i32⟩
  | .hbm, ⟨5, _⟩ => ⟨S32x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S32x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x500000, .i32⟩
  | .hbm, ⟨14, _⟩ => ⟨S500000, .i32⟩
  | .hbm, ⟨15, _⟩ => ⟨S1x500000, .i32⟩
  | .hbm, ⟨16, _⟩ => ⟨S500000, .i32⟩
  | .hbm, ⟨17, _⟩ => ⟨S500000x64, .f32⟩
  | .hbm, ⟨18, _⟩ => ⟨S1x64, .f32⟩
  | .hbm, ⟨19, _⟩ => ⟨S500000x64, .f32⟩
  | .hbm, ⟨20, _⟩ => ⟨S500000x64, .f32⟩
  | .hbm, ⟨21, _⟩ => ⟨S500000x64, .f32⟩
  | .hbm, ⟨22, _⟩ => ⟨S500000x64, .f32⟩
  | .hbm, ⟨23, _⟩ => ⟨S_, .f32⟩
  | .hbm, ⟨24, _⟩ => ⟨S500000x64, .f32⟩
  | .hbm, ⟨25, _⟩ => ⟨S500000x64, .f32⟩
  | .hbm, ⟨26, _⟩ => ⟨S_, .f32⟩
  | .hbm, ⟨27, _⟩ => ⟨S500000x64, .f32⟩
  | .hbm, ⟨28, _⟩ => ⟨S500000x64, .f32⟩
  | .hbm, ⟨29, _⟩ => ⟨S500000x64, .f32⟩
  | .hbm, ⟨30, _⟩ => ⟨S500000x64, .f32⟩
  | .hbm, ⟨31, _⟩ => ⟨S1x64, .f32⟩
  | .hbm, ⟨32, _⟩ => ⟨S500000x64, .f32⟩
  | .hbm, ⟨33, _⟩ => ⟨S500000x64, .f32⟩
  | .hbm, ⟨34, _⟩ => ⟨S_, .i32⟩
  | .hbm, ⟨35, _⟩ => ⟨S500000, .i32⟩
  | .hbm, ⟨36, _⟩ => ⟨S500000, .i1⟩
  | .hbm, ⟨37, _⟩ => ⟨S_, .i32⟩
  | .hbm, ⟨38, _⟩ => ⟨S500000, .i32⟩
  | .hbm, ⟨39, _⟩ => ⟨S500000, .i32⟩
  | .hbm, ⟨40, _⟩ => ⟨S500000, .i32⟩
  | .hbm, ⟨41, _⟩ => ⟨S500000x1, .i32⟩
  | .hbm, ⟨42, _⟩ => ⟨S500000x64, .f32⟩
  | .hbm, ⟨43, _⟩ => ⟨S500000x64, .f32⟩
  | .hbm, ⟨44, _⟩ => ⟨S_, .f32⟩
  | .hbm, ⟨45, _⟩ => ⟨S50000x64, .f32⟩
  | .hbm, ⟨46, _⟩ => ⟨S500000x1, .i32⟩
  | .hbm, ⟨47, _⟩ => ⟨S50000x64, .f32⟩
  | .hbm, ⟨48, _⟩ => ⟨S500000x64, .f32⟩
  | .hbm, ⟨49, _⟩ => ⟨S1x64, .f32⟩
  | .hbm, ⟨50, _⟩ => ⟨S500000x64, .f32⟩
  | .hbm, ⟨51, _⟩ => ⟨S500000x64, .f32⟩
  | .hbm, ⟨52, _⟩ => ⟨S500000x64, .f32⟩
  | .hbm, ⟨53, _⟩ => ⟨S500000x64, .f32⟩
  | .hbm, ⟨54, _⟩ => ⟨S_, .f32⟩
  | .hbm, ⟨55, _⟩ => ⟨S500000x64, .f32⟩
  | .hbm, ⟨56, _⟩ => ⟨S500000x64, .f32⟩
  | .hbm, ⟨57, _⟩ => ⟨S_, .f32⟩
  | .hbm, ⟨58, _⟩ => ⟨S500000x64, .f32⟩
  | .hbm, ⟨59, _⟩ => ⟨S500000x64, .f32⟩
  | .hbm, ⟨60, _⟩ => ⟨S500000x64, .f32⟩
  | .hbm, ⟨61, _⟩ => ⟨S500000x64, .f32⟩
  | .hbm, ⟨62, _⟩ => ⟨S1x64, .f32⟩
  | .hbm, ⟨63, _⟩ => ⟨S500000x64, .f32⟩
  | .hbm, ⟨64, _⟩ => ⟨S500000x64, .f32⟩
  | .hbm, ⟨65, _⟩ => ⟨S_, .i32⟩
  | .hbm, ⟨66, _⟩ => ⟨S500000, .i32⟩
  | .hbm, ⟨67, _⟩ => ⟨S500000, .i1⟩
  | .hbm, ⟨68, _⟩ => ⟨S_, .i32⟩
  | .hbm, ⟨69, _⟩ => ⟨S500000, .i32⟩
  | .hbm, ⟨70, _⟩ => ⟨S500000, .i32⟩
  | .hbm, ⟨71, _⟩ => ⟨S500000, .i32⟩
  | .hbm, ⟨72, _⟩ => ⟨S500000x1, .i32⟩
  | .hbm, ⟨73, _⟩ => ⟨S500000x3x64, .f32⟩
  | .hbm, ⟨74, _⟩ => ⟨S500000x1x64, .f32⟩
  | .hbm, ⟨75, _⟩ => ⟨S500000x3x64, .f32⟩
  | .hbm, ⟨76, _⟩ => ⟨S500000x3x64, .f32⟩
  | .hbm, ⟨77, _⟩ => ⟨S_, .f32⟩
  | .hbm, ⟨78, _⟩ => ⟨S50000x3x64, .f32⟩
  | .hbm, ⟨79, _⟩ => ⟨S500000x1, .i32⟩
  | .hbm, ⟨80, _⟩ => ⟨S50000x3x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_0 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_1 : Ref sig .tc := ⟨.hbm, 65, rfl⟩
abbrev main_v33 : Ref sig .tc := ⟨.hbm, 66, rfl⟩
abbrev main_v34 : Ref sig .tc := ⟨.hbm, 67, rfl⟩
abbrev main_c_2 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_3 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S50000x64 : S_.BroadcastsInDim S50000x64 (![] : Fin 0 → Fin S50000x64.rank)
  bcast_S500000x64_S500000x1x64_0_2 : S500000x64.BroadcastsInDim S500000x1x64 (![0, 2] : Fin 2 → Fin S500000x1x64.rank)
  bcast_S500000x1x64_S500000x3x64_0_1_2 : S500000x1x64.BroadcastsInDim S500000x3x64 (![0, 1, 2] : Fin 3 → Fin S500000x3x64.rank)
  bcast_S_S50000x3x64 : S_.BroadcastsInDim S50000x3x64 (![] : Fin 0 → Fin S50000x3x64.rank)
  dot_S500000x32_S32x64_S500000x64_1_0_0_1_n_n_wf : DotDims.WF S500000x32 S32x64 S500000x64 [1] [0] [0] [1] [] []
  dot_S500000x64_S64x64_S500000x64_1_0_0_1_n_n_wf : DotDims.WF S500000x64 S64x64 S500000x64 [1] [0] [0] [1] [] []
  gather_S50000x64_S500000x1_S500000x64_1_0_n_n_0_1_164_wf : GatherDims.WF S50000x64 S500000x1 S500000x64 [1] [0] [] [0] [] 1 ![1, 64]
  scatter_S50000x64_S500000x1_S500000x64_1_0_0_1_wf : ScatterDims.WF S50000x64 S500000x1 S500000x64 [1] [0] [0] 1
  gather_S50000x3x64_S500000x1_S500000x3x64_12_0_n_n_0_1_1364_wf : GatherDims.WF S50000x3x64 S500000x1 S500000x3x64 [1, 2] [0] [] [0] [] 1 ![1, 3, 64]
  scatter_S50000x3x64_S500000x1_S500000x3x64_12_0_0_1_wf : ScatterDims.WF S50000x3x64 S500000x1 S500000x3x64 [1, 2] [0] [0] 1

variable [Facts₀]

def dot_S500000x32_S32x64_S500000x64_1_0_0_1_n_n : DotDims S500000x32 S32x64 S500000x64 where
  lhsContracting := [1]
  rhsContracting := [0]
  lhsNonContracting := [0]
  rhsNonContracting := [1]
  lhsBatch := []
  rhsBatch := []
  wf := dot_S500000x32_S32x64_S500000x64_1_0_0_1_n_n_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def gather_S50000x3x64_S500000x1_S500000x3x64_12_0_n_n_0_1_1364 : GatherDims S50000x3x64 S500000x1 S500000x3x64 where
  offsetDims := [1, 2]
  collapsedSliceDims := [0]
  operandBatchingDims := []
  startIndicesBatchingDims := []
  startIndexMap := [0]
  indexVectorDim := 1
  sliceSizes := ![1, 3, 64]
  wf := gather_S50000x3x64_S500000x1_S500000x3x64_12_0_n_n_0_1_1364_wf
def scatter_S50000x3x64_S500000x1_S500000x3x64_12_0_0_1 : ScatterDims S50000x3x64 S500000x1 S500000x3x64 where
  updateWindowDims := [1, 2]
  insertedWindowDims := [0]
  scatterDimsToOperandDims := [0]
  indexVectorDim := 1
  wf := scatter_S50000x3x64_S500000x1_S500000x3x64_12_0_0_1_wf

class Facts : Prop extends Facts₀ where

variable [Facts]
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.LibMidAxis.lean ====
/-
  A matrix given a middle unit axis and then spread along it, read at an index written by coordinates: an [a, b] matrix
  cast to [a, 1, b] reads, at (p, 0, q), the matrix at (p, q); and an [a, 1, b] array spread to [a, k, b] (the vector
  broadcast, which aligns trailing axes) reads, at (p, r, q), the array at (p, 0, q). Together: one row of weights per
  item, applied to each of the item's k components.
-/
import Idealize.ShloMosaic.Lib.ValueIdx
import Idealize.ShloMosaic.Lib.Pipeline.Value

namespace Cert.LibMidAxis

open Idealize.ShloMosaic Idealize.ShloMosaic.ValueIdx

variable {α : Type}

/-- An `[a, b]` matrix cast to `[a, 1, b]` reads, at `(p, u, q)`, the matrix at `(p, q)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An `[a, 1, b]` array spread to `[a, k, b]` reads, at `(p, r, q)`, the array at `(p, 0, q)`. -/
theorem broadcastTo_a1b_akb_apply {a k b : ℕ} (v : (⟨3, ![a, 1, b]⟩ : Shape).Idx → α)
    (h : (⟨3, ![a, 1, b]⟩ : Shape).Broadcasts ⟨3, ![a, k, b]⟩) (p : Fin a) (r : Fin k) (q : Fin b) :
    broadcastTo ⟨3, ![a, k, b]⟩ v h (ix3 p r q) = v (ix3 p (0 : Fin 1) q) := by
  refine broadcastTo_apply v h (ix3 p r q) (ix3 p (0 : Fin 1) q) fun ax => ?_
  match ax with
  | ⟨0, _⟩ =>
    show p.val = if a = 1 then 0 else p.val
    split
    · have := p.isLt; omega
    · rfl
  | ⟨1, _⟩ =>
    show (0 : ℕ) = if (1 : ℕ) = 1 then 0 else r.val
    rw [if_pos rfl]
  | ⟨2, _⟩ =>
    show q.val = if b = 1 then 0 else q.val
    split
    · have := q.isLt; omega
    · rfl

/-- The two together: the matrix's row `p` applied to every component `r`. -/
theorem spread_mid_apply {a k b : ℕ} (x : (⟨2, ![a, b]⟩ : Shape).Idx → α)
    (hc : (⟨2, ![a, b]⟩ : Shape).ShapeCasts ⟨3, ![a, 1, b]⟩) (hb : (⟨3, ![a, 1, b]⟩ : Shape).Broadcasts ⟨3, ![a, k, b]⟩)
    (p : Fin a) (r : Fin k) (q : Fin b) :
    broadcastTo ⟨3, ![a, k, b]⟩ (shapeCast ⟨3, ![a, 1, b]⟩ x hc) hb (ix3 p r q) = x (ix2 p q) :=
  (broadcastTo_a1b_akb_apply _ hb p r q).trans (shapeCast_ab_a1b_apply x hc p 0 q)

end Cert.LibMidAxis
-- ==== Proof.EdgeWeight.lean ====
/-
  The weight an edge puts on each of the 64 feature channels, as a function of the edge's 32 radial-basis values:
  a two-layer network, x ↦ silu(x·W₁ + b₁)·W₂ + b₂ with silu(z) = z·σ(z) and σ the logistic function, over the extended
  reals. Both programs compute this one function edge by edge; nothing here mentions either of them.
-/
import Idealize.ShloMosaic.Lib.ValueIdx
import Idealize.ShloMosaic.PureOps.Ideal

noncomputable section

open scoped BigOperators

namespace Cert.EdgeWeight

open Idealize.ShloMosaic Idealize.ShloMosaic.ValueIdx

/-- `z · σ(z)`, with `σ(z) = 1 / (1 + e^(-z))` read on the extended reals (`σ(-∞) = 0`, `σ(+∞) = 1`). -/
def silu (z : EReal) : EReal := z * Ideal.logistic z

/-- Hidden unit `k` of an edge whose radial-basis values are `xr`: `silu((∑ₗ xr l · W₁[l, k]) + b₁[k])`. -/
def hiddenUnit (xr : Fin 32 → EReal) (w1 : (⟨2, ![32, 64]⟩ : Shape).Idx → EReal) (b1 : (⟨1, ![64]⟩ : Shape).Idx → EReal)
    (k : Fin 64) : EReal :=
  silu ((∑ l : Fin 32, xr l * w1 (ix2 l k)) + b1 (ix1 k))

/-- The edge's weight on channel `q`: `(∑ₖ hiddenUnit k · W₂[k, q]) + b₂[q]`. -/
def weight (xr : Fin 32 → EReal) (w1 : (⟨2, ![32, 64]⟩ : Shape).Idx → EReal) (b1 : (⟨1, ![64]⟩ : Shape).Idx → EReal)
    (w2 : (⟨2, ![64, 64]⟩ : Shape).Idx → EReal) (b2 : (⟨1, ![64]⟩ : Shape).Idx → EReal) (q : Fin 64) : EReal :=
  (∑ k : Fin 64, hiddenUnit xr w1 b1 k * w2 (ix2 k q)) + b2 (ix1 q)

/-- The scalar messages of all 500000 edges: at (e, q) the gathered scalar feature of edge e's source node on channel q,
    times the weight the edge puts on the channel — a function of row e of the radial-basis array `el` only. -/
def scalarMsg (sg : (⟨2, ![500000, 64]⟩ : Shape).Idx → EReal) (el : (⟨2, ![500000, 32]⟩ : Shape).Idx → EReal)
    (w1 : (⟨2, ![32, 64]⟩ : Shape).Idx → EReal) (b1 : (⟨1, ![64]⟩ : Shape).Idx → EReal)
    (w2 : (⟨2, ![64, 64]⟩ : Shape).Idx → EReal) (b2 : (⟨1, ![64]⟩ : Shape).Idx → EReal) :
    (⟨2, ![500000, 64]⟩ : Shape).Idx → EReal := fun j =>
  sg j * weight (fun l => el (ix2 (j 0) l)) w1 b1 w2 b2 (j 1)

theorem scalarMsg_apply (sg : (⟨2, ![500000, 64]⟩ : Shape).Idx → EReal) (el : (⟨2, ![500000, 32]⟩ : Shape).Idx → EReal)
    (w1 : (⟨2, ![32, 64]⟩ : Shape).Idx → EReal) (b1 : (⟨1, ![64]⟩ : Shape).Idx → EReal)
    (w2 : (⟨2, ![64, 64]⟩ : Shape).Idx → EReal) (b2 : (⟨1, ![64]⟩ : Shape).Idx → EReal) (e : Fin 500000) (q : Fin 64) :
    scalarMsg sg el w1 b1 w2 b2 (ix2 e q) = sg (ix2 e q) * weight (fun l => el (ix2 e l)) w1 b1 w2 b2 q := rfl

/-- The vector messages of all edges: at (e, r, q) component r of the gathered vector feature on channel q, times the
    weight the edge puts on the channel — the same weight for the three components. -/
def vectorMsg (vg : (⟨3, ![500000, 3, 64]⟩ : Shape).Idx → EReal) (el : (⟨2, ![500000, 32]⟩ : Shape).Idx → EReal)
    (w1 : (⟨2, ![32, 64]⟩ : Shape).Idx → EReal) (b1 : (⟨1, ![64]⟩ : Shape).Idx → EReal)
    (w2 : (⟨2, ![64, 64]⟩ : Shape).Idx → EReal) (b2 : (⟨1, ![64]⟩ : Shape).Idx → EReal) :
    (⟨3, ![500000, 3, 64]⟩ : Shape).Idx → EReal := fun j =>
  vg j * weight (fun l => el (ix2 (j 0) l)) w1 b1 w2 b2 (j 2)

theorem vectorMsg_apply (vg : (⟨3, ![500000, 3, 64]⟩ : Shape).Idx → EReal) (el : (⟨2, ![500000, 32]⟩ : Shape).Idx → EReal)
    (w1 : (⟨2, ![32, 64]⟩ : Shape).Idx → EReal) (b1 : (⟨1, ![64]⟩ : Shape).Idx → EReal)
    (w2 : (⟨2, ![64, 64]⟩ : Shape).Idx → EReal) (b2 : (⟨1, ![64]⟩ : Shape).Idx → EReal)
    (e : Fin 500000) (r : Fin 3) (q : Fin 64) :
    vectorMsg vg el w1 b1 w2 b2 (ix3 e r q) = vg (ix3 e r q) * weight (fun l => el (ix2 e l)) w1 b1 w2 b2 q := rfl

/-- The single-precision pattern of `1.0` denotes the real number one. -/
theorem ofBits_one : Ideal.ofBits .f32 0x3F800000#32 = 1 := by
  simp [Ideal.ofBits, Ideal.ieee, -EReal.coe_mul]; norm_num

/-- The logistic function spelt out with the quotient, the sum and the exponential, the one written as its
    single-precision pattern: `σ(z) = 1 / (1 + e^(-z))` at every extended real. -/
theorem silu_spelt (z : EReal) :
    z * Ideal.div (Ideal.ofBits .f32 0x3F800000#32) (Ideal.ofBits .f32 0x3F800000#32 + Ideal.exp (-z)) = silu z := by
  rw [ofBits_one]; rfl

end Cert.EdgeWeight

end
-- ==== Proof.KernelPayload.lean ====
/-
  What the kernel's body computes for one block of 2000 edges, read entry by entry: each of its two dense layers is
  the textbook product plus the bias of the column; the value it prepares for the vector messages is the edge's
  weight on the channel; the scalar message is the gathered scalar feature times that weight; and the vector message
  is each of the three components of the gathered vector feature times the edge's weight on the channel. Roundings to
  the half-width format are the identity on the extended reals.
-/
import proofs.«131653_j7275674599931_2_alg».proof.Proof.Gen.KernelIdeal.Skeleton
import proofs.«131653_j7275674599931_2_alg».proof.Proof.LibPlainDot
import proofs.«131653_j7275674599931_2_alg».proof.Proof.LibMidAxis
import proofs.«131653_j7275674599931_2_alg».proof.Proof.EdgeWeight
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.EdgeWeight

/-- A bias vector laid out as one row and spread over the block's rows reads, at (p, q), the bias of column q. -/
theorem bias_apply (b : Vec Ideal S64 .f32) (p : Fin 2000) (q : Fin 64) :
    broadcastTo S2000x64 (shapeCast S1x64 b shapeCasts_S64_S1x64) broadcasts_S1x64_S2000x64 (ix2 p q) = b (ix1 q) :=
  (broadcastTo_1b_ab_apply _ broadcasts_S1x64_S2000x64 p q).trans (shapeCast_a_1a_apply b shapeCasts_S64_S1x64 0 q)

/-- The first dense layer at (p, k): the product of the block's row p with column k of the weights, plus the bias. -/
theorem dense32_apply (x : FVec Ideal S2000x32 .bf16) (w : FVec Ideal S32x64 .bf16) (b : Vec Ideal S64 .f32)
    (p : Fin 2000) (k : Fin 64) :
    addf (matmul dot_S2000x32_S32x64_S2000x64_1_0_0_1_n_n none x w (constant S2000x64 .f32 0x00000000#32))
        (broadcastTo S2000x64 (shapeCast S1x64 b shapeCasts_S64_S1x64) broadcasts_S1x64_S2000x64) (ix2 p k)
      = (∑ l : Fin 32, x (ix2 p l) * w (ix2 l k)) + b (ix1 k) := by
  rw [addf_apply, bias_apply]
  exact congrArg (· + b (ix1 k)) (Cert.LibPlainDot.matmul_zero_apply none x w p k)

/-- The second dense layer at (p, q), likewise over its 64 hidden units. -/
theorem dense64_apply (x : FVec Ideal S2000x64 .bf16) (w : FVec Ideal S64x64 .bf16) (b : Vec Ideal S64 .f32)
    (p : Fin 2000) (q : Fin 64) :
    addf (matmul dot_S2000x64_S64x64_S2000x64_1_0_0_1_n_n none x w (constant S2000x64 .f32 0x00000000#32))
        (broadcastTo S2000x64 (shapeCast S1x64 b shapeCasts_S64_S1x64) broadcasts_S1x64_S2000x64) (ix2 p q)
      = (∑ k : Fin 64, x (ix2 p k) * w (ix2 k q)) + b (ix1 q) := by
  rw [addf_apply, bias_apply]
  exact congrArg (· + b (ix1 q)) (Cert.LibPlainDot.matmul_zero_apply none x w p q)

/-- The hidden layer of the block at (p, k): the first dense layer times its logistic. -/
theorem hidden_apply (v0 : Vec Ideal S2000x32 .f32) (w1 : Vec Ideal S32x64 .f32) (b1 : Vec Ideal S64 .f32)
    (p : Fin 2000) (k : Fin 64) :
    mulf (F := Ideal)
        (addf (F := Ideal) (matmul (F := Ideal) dot_S2000x32_S32x64_S2000x64_1_0_0_1_n_n none (truncf (F := Ideal) .bf16 v0 bitsLt_bf16_f32)
            (truncf (F := Ideal) .bf16 w1 bitsLt_bf16_f32) (constant (F := Ideal) S2000x64 .f32 0x00000000#32))
          (broadcastTo S2000x64 (shapeCast S1x64 b1 shapeCasts_S64_S1x64) broadcasts_S1x64_S2000x64))
        (logistic (F := Ideal)
          (addf (F := Ideal) (matmul (F := Ideal) dot_S2000x32_S32x64_S2000x64_1_0_0_1_n_n none (truncf (F := Ideal) .bf16 v0 bitsLt_bf16_f32)
              (truncf (F := Ideal) .bf16 w1 bitsLt_bf16_f32) (constant (F := Ideal) S2000x64 .f32 0x00000000#32))
            (broadcastTo S2000x64 (shapeCast S1x64 b1 shapeCasts_S64_S1x64) broadcasts_S1x64_S2000x64)))
        (ix2 p k)
      = hiddenUnit (fun l => v0 (ix2 p l)) w1 b1 k := by
  rw [mulf_apply]
  show _ * FloatOps.logistic (F := Ideal) (φ := .f32) _ = _
  rw [dense32_apply]
  rfl

/-- The value the body prepares for the vector messages, at (p, q): the weight edge p puts on channel q. -/
theorem pay3_apply (v0 : Vec Ideal S2000x32 .f32) (v19 : Vec Ideal S32x64 .f32) (v21 : Vec Ideal S64x64 .f32)
    (v23 v24 : Vec Ideal S64 .f32) (p : Fin 2000) (q : Fin 64) :
    k0_pay3 (F := Ideal) v0 v19 v21 v23 v24 (ix2 p q) = weight (fun l => v0 (ix2 p l)) v19 v23 v21 v24 q := by
  unfold k0_pay3 k0_pay2
  dsimp only
  refine (dense64_apply _ _ v24 p q).trans ?_
  unfold weight
  refine congrArg (· + v24 (ix1 q)) (Finset.sum_congr rfl fun k _ => ?_)
  exact congrArg (· * v21 (ix2 k q)) (hidden_apply v0 v19 v23 p k)

/-- The scalar message of the block at (p, q): the gathered scalar feature times the weight edge p puts on channel q. -/
theorem pay4_apply (v0 : Vec Ideal S2000x32 .f32) (v2 : Vec Ideal S32x64 .f32) (v4 : Vec Ideal S64x64 .f32)
    (v6 v7 : Vec Ideal S64 .f32) (v36 : Vec Ideal S2000x64 .f32) (p : Fin 2000) (q : Fin 64) :
    k0_pay4 (F := Ideal) v0 v2 v4 v6 v7 v36 (ix2 p q)
      = v36 (ix2 p q) * weight (fun l => v0 (ix2 p l)) v2 v6 v4 v7 q := by
  unfold k0_pay4 k0_pay2
  dsimp only
  rw [mulf_apply, shapeCast_self]
  refine congrArg (v36 (ix2 p q) * ·) ?_
  refine (dense64_apply _ _ v7 p q).trans ?_
  unfold weight
  refine congrArg (· + v7 (ix1 q)) (Finset.sum_congr rfl fun k _ => ?_)
  exact congrArg (· * v4 (ix2 k q)) (hidden_apply v0 v2 v6 p k)

/-- The vector message of the block at (p, r, q): component r of the gathered vector feature times the value
    prepared for edge p and channel q, the same for the three components. -/
theorem pay1_apply (v35 : FVec Ideal S2000x64 .f32) (v40 : Vec Ideal S2000x3x64 .f32) (p : Fin 2000) (r : Fin 3) (q : Fin 64) :
    k0_pay1 (F := Ideal) v35 v40 (ix3 p r q) = v40 (ix3 p r q) * v35 (ix2 p q) := by
  unfold k0_pay1
  rw [mulf_apply, shapeCast_self]
  exact congrArg (v40 (ix3 p r q) * ·)
    (Cert.LibMidAxis.spread_mid_apply v35 shapeCasts_S2000x64_S2000x1x64 broadcasts_S2000x1x64_S2000x3x64 p r q)

end Cert.KernelIdeal.Payload

end
-- ==== Proof.LibByCoords.lean ====
/-
  Two arrays of a rank-2 or rank-3 shape are equal as soon as they agree at every index written by coordinates.
-/
import Idealize.ShloMosaic.Lib.ValueIdx

namespace Cert.LibByCoords

open Idealize.ShloMosaic Idealize.ShloMosaic.ValueIdx

variable {α : Type}

/-- Rank 2: agreement at every `(p, q)`. -/
theorem ext2 {n0 n1 : ℕ} {f g : (⟨2, ![n0, n1]⟩ : Shape).Idx → α}
    (h : ∀ (p : Fin n0) (q : Fin n1), f (ix2 p q) = g (ix2 p q)) : f = g :=
  funext fun y => (congrArg f (eq_ix2 y)).trans ((h (y 0) (y 1)).trans (congrArg g (eq_ix2 y)).symm)

/-- Rank 3: agreement at every `(p, r, q)`. -/
theorem ext3 {n0 n1 n2 : ℕ} {f g : (⟨3, ![n0, n1, n2]⟩ : Shape).Idx → α}
    (h : ∀ (p : Fin n0) (r : Fin n1) (q : Fin n2), f (ix3 p r q) = g (ix3 p r q)) : f = g :=
  funext fun y => (congrArg f (eq_ix3 y)).trans ((h (y 0) (y 1) (y 2)).trans (congrArg g (eq_ix3 y)).symm)

end Cert.LibByCoords
-- ==== Proof.KernelArrays.lean ====
/-
  From blocks to arrays. The region walks the 500000 edges in 250 blocks of 2000: at grid point t the three
  edge-indexed windows (radial basis, gathered scalar features, gathered vector features) hold rows
  2000·t … 2000·t + 1999 of their arrays, the eight weight and bias windows hold their whole arrays, and the two
  output windows write the same rows back. So what point t writes back is block t of one function of the arrays the
  region finds — the scalar and the vector messages of the specification — and, the 250 blocks tiling the arrays,
  the two output arrays end holding those messages for every edge.
-/
import proofs.«131653_j7275674599931_2_alg».proof.Proof.Gen.KernelIdeal.Frame
import proofs.«131653_j7275674599931_2_alg».proof.Proof.Gen.KernelIdeal.Points
import proofs.«131653_j7275674599931_2_alg».proof.Proof.KernelPayload
import proofs.«131653_j7275674599931_2_alg».proof.Proof.LibByCoords
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Payload Idealize.ShloMosaic.ValueIdx Cert.EdgeWeight

variable (m : (ℓ : Loc nD τ sig) → Buf (Elt Ideal) ℓ)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The block index of each edge-indexed window at grid point t is (t, 0, …): decided over the 250 points. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_11.index t (0 : Fin 2) = t.val ∧ win0_11.index t (1 : Fin 2) = 0
    ∧ win0_12.index t (0 : Fin 3) = t.val ∧ win0_12.index t (1 : Fin 3) = 0 ∧ win0_12.index t (2 : Fin 3) = 0 :=
  (by decide +kernel : ∀ t : Fin grid0.N, _)

/-- The block index of each weight or bias window is zero at every point. -/
theorem idx_whole : ∀ t : Fin cfg0.N,
    win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

/-! ## The input blocks as rows of their arrays -/

/-- Row p of the radial-basis block at point t is row 2000·t + p of the array. -/
theorem blk0_apply (c : Dev nD) (t : Fin cfg0.N) (p : Fin 2000) (l : Fin 32) (e : Fin 500000)
    (he : e.val = t.val * 2000 + p.val) :
    (iblk m c 0 t : Vec Ideal S2000x32 .f32) (ix2 p l) = V m c main_arg3 (ix2 e l) := by
  obtain ⟨h0, h1, -⟩ := idx_rows t
  unfold iblk
  rw [View.read_apply]
  show V m c main_arg3 _ = V m c main_arg3 _
  refine congrArg _ (funext fun a => Fin.ext ?_)
  match a with
  | ⟨0, _⟩ => show win0_0.index t (0 : Fin 2) * 2000 + 1 * p.val = e.val; rw [h0, he]; omega
  | ⟨1, _⟩ => show win0_0.index t (1 : Fin 2) * 32 + 1 * l.val = l.val; rw [h1]; omega

/-- Row p of the gathered-scalar block at point t is row 2000·t + p of the gathered array. -/
theorem blk1_apply (c : Dev nD) (t : Fin cfg0.N) (p : Fin 2000) (q : Fin 64) (e : Fin 500000)
    (he : e.val = t.val * 2000 + p.val) :
    (iblk m c 1 t : Vec Ideal S2000x64 .f32) (ix2 p q) = V m c main_v10 (ix2 e q) := by
  obtain ⟨-, -, h0, h1, -⟩ := idx_rows t
  unfold iblk
  rw [View.read_apply]
  show V m c main_v10 _ = V m c main_v10 _
  refine congrArg _ (funext fun a => Fin.ext ?_)
  match a with
  | ⟨0, _⟩ => show win0_1.index t (0 : Fin 2) * 2000 + 1 * p.val = e.val; rw [h0, he]; omega
  | ⟨1, _⟩ => show win0_1.index t (1 : Fin 2) * 64 + 1 * q.val = q.val; rw [h1]; omega

/-- Row p of the gathered-vector block at point t is row 2000·t + p of the gathered array, component by component. -/
theorem blk2_apply (c : Dev nD) (t : Fin cfg0.N) (p : Fin 2000) (r : Fin 3) (q : Fin 64) (e : Fin 500000)
    (he : e.val = t.val * 2000 + p.val) :
    (iblk m c 2 t : Vec Ideal S2000x3x64 .f32) (ix3 p r q) = V m c main_v17 (ix3 e r q) := by
  obtain ⟨-, -, -, -, h0, h1, h2, -⟩ := idx_rows t
  unfold iblk
  rw [View.read_apply]
  show V m c main_v17 _ = V m c main_v17 _
  refine congrArg _ (funext fun a => Fin.ext ?_)
  match a with
  | ⟨0, _⟩ => show win0_2.index t (0 : Fin 3) * 2000 + 1 * p.val = e.val; rw [h0, he]; omega
  | ⟨1, _⟩ => show win0_2.index t (1 : Fin 3) * 3 + 1 * r.val = r.val; rw [h1]; omega
  | ⟨2, _⟩ => show win0_2.index t (2 : Fin 3) * 64 + 1 * q.val = q.val; rw [h2]; omega

/-- The weight and bias blocks are their whole arrays at every point. -/
theorem blk3_eq (c : Dev nD) (t : Fin cfg0.N) : (iblk m c 3 t : Vec Ideal S32x64 .f32) = V m c main_arg5 := by
  obtain ⟨h0, h1, -⟩ := idx_whole t
  funext y
  unfold iblk
  rw [View.read_apply]
  show V m c main_arg5 _ = V m c main_arg5 _
  refine congrArg _ (funext fun a => Fin.ext ?_)
  match a with
  | ⟨0, _⟩ => show win0_3.index t (0 : Fin 2) * 32 + 1 * (y 0).val = (y 0).val; rw [h0]; omega
  | ⟨1, _⟩ => show win0_3.index t (1 : Fin 2) * 64 + 1 * (y 1).val = (y 1).val; rw [h1]; omega

theorem blk4_eq (c : Dev nD) (t : Fin cfg0.N) : (iblk m c 4 t : Vec Ideal S64 .f32) = V m c main_arg6 := by
  obtain ⟨-, -, h0, -⟩ := idx_whole t
  funext y
  unfold iblk
  rw [View.read_apply]
  show V m c main_arg6 _ = V m c main_arg6 _
  refine congrArg _ (funext fun a => Fin.ext ?_)
  match a with
  | ⟨0, _⟩ => show win0_4.index t (0 : Fin 1) * 64 + 1 * (y 0).val = (y 0).val; rw [h0]; omega

theorem blk5_eq (c : Dev nD) (t : Fin cfg0.N) : (iblk m c 5 t : Vec Ideal S64x64 .f32) = V m c main_arg7 := by
  obtain ⟨-, -, -, h0, h1, -⟩ := idx_whole t
  funext y
  unfold iblk
  rw [View.read_apply]
  show V m c main_arg7 _ = V m c main_arg7 _
  refine congrArg _ (funext fun a => Fin.ext ?_)
  match a with
  | ⟨0, _⟩ => show win0_5.index t (0 : Fin 2) * 64 + 1 * (y 0).val = (y 0).val; rw [h0]; omega
  | ⟨1, _⟩ => show win0_5.index t (1 : Fin 2) * 64 + 1 * (y 1).val = (y 1).val; rw [h1]; omega

theorem blk6_eq (c : Dev nD) (t : Fin cfg0.N) : (iblk m c 6 t : Vec Ideal S64 .f32) = V m c main_arg8 := by
  obtain ⟨-, -, -, -, -, h0, -⟩ := idx_whole t
  funext y
  unfold iblk
  rw [View.read_apply]
  show V m c main_arg8 _ = V m c main_arg8 _
  refine congrArg _ (funext fun a => Fin.ext ?_)
  match a with
  | ⟨0, _⟩ => show win0_6.index t (0 : Fin 1) * 64 + 1 * (y 0).val = (y 0).val; rw [h0]; omega

theorem blk7_eq (c : Dev nD) (t : Fin cfg0.N) : (iblk m c 7 t : Vec Ideal S32x64 .f32) = V m c main_arg9 := by
  obtain ⟨-, -, -, -, -, -, h0, h1, -⟩ := idx_whole t
  funext y
  unfold iblk
  rw [View.read_apply]
  show V m c main_arg9 _ = V m c main_arg9 _
  refine congrArg _ (funext fun a => Fin.ext ?_)
  match a with
  | ⟨0, _⟩ => show win0_7.index t (0 : Fin 2) * 32 + 1 * (y 0).val = (y 0).val; rw [h0]; omega
  | ⟨1, _⟩ => show win0_7.index t (1 : Fin 2) * 64 + 1 * (y 1).val = (y 1).val; rw [h1]; omega

theorem blk8_eq (c : Dev nD) (t : Fin cfg0.N) : (iblk m c 8 t : Vec Ideal S64 .f32) = V m c main_arg10 := by
  obtain ⟨-, -, -, -, -, -, -, -, h0, -⟩ := idx_whole t
  funext y
  unfold iblk
  rw [View.read_apply]
  show V m c main_arg10 _ = V m c main_arg10 _
  refine congrArg _ (funext fun a => Fin.ext ?_)
  match a with
  | ⟨0, _⟩ => show win0_8.index t (0 : Fin 1) * 64 + 1 * (y 0).val = (y 0).val; rw [h0]; omega

theorem blk9_eq (c : Dev nD) (t : Fin cfg0.N) : (iblk m c 9 t : Vec Ideal S64x64 .f32) = V m c main_arg11 := by
  obtain ⟨-, -, -, -, -, -, -, -, -, h0, h1, -⟩ := idx_whole t
  funext y
  unfold iblk
  rw [View.read_apply]
  show V m c main_arg11 _ = V m c main_arg11 _
  refine congrArg _ (funext fun a => Fin.ext ?_)
  match a with
  | ⟨0, _⟩ => show win0_9.index t (0 : Fin 2) * 64 + 1 * (y 0).val = (y 0).val; rw [h0]; omega
  | ⟨1, _⟩ => show win0_9.index t (1 : Fin 2) * 64 + 1 * (y 1).val = (y 1).val; rw [h1]; omega

theorem blk10_eq (c : Dev nD) (t : Fin cfg0.N) : (iblk m c 10 t : Vec Ideal S64 .f32) = V m c main_arg12 := by
  obtain ⟨-, -, -, -, -, -, -, -, -, -, -, h0⟩ := idx_whole t
  funext y
  unfold iblk
  rw [View.read_apply]
  show V m c main_arg12 _ = V m c main_arg12 _
  refine congrArg _ (funext fun a => Fin.ext ?_)
  match a with
  | ⟨0, _⟩ => show win0_10.index t (0 : Fin 1) * 64 + 1 * (y 0).val = (y 0).val; rw [h0]; omega

/-! ## What each point writes back -/

/-- The scalar-message payload of a block whose rows are rows 2000·T … of the arrays, at a block index y and the
    array index i under it: the scalar message of the specification at i. -/
theorem block11 (x0 : Vec Ideal S2000x32 .f32) (x1 : Vec Ideal S2000x64 .f32) (x3 : Vec Ideal S32x64 .f32)
    (x4 : Vec Ideal S64 .f32) (x5 : Vec Ideal S64x64 .f32) (x6 : Vec Ideal S64 .f32)
    (sg : S500000x64.Idx → EReal) (el : S500000x32.Idx → EReal)
    (w1 : S32x64.Idx → EReal) (b1 : S64.Idx → EReal) (w2 : S64x64.Idx → EReal) (b2 : S64.Idx → EReal)
    (e3 : x3 = w1) (e4 : x4 = b1) (e5 : x5 = w2) (e6 : x6 = b2) (T : ℕ)
    (h0 : ∀ (p : Fin 2000) (l : Fin 32) (e : Fin 500000), e.val = T * 2000 + p.val → x0 (ix2 p l) = el (ix2 e l))
    (h1 : ∀ (p : Fin 2000) (q : Fin 64) (e : Fin 500000), e.val = T * 2000 + p.val → x1 (ix2 p q) = sg (ix2 e q))
    (y : S2000x64.Idx) (i : S500000x64.Idx) (hi0 : (i 0).val = T * 2000 + (y 0).val) (hi1 : (i 1).val = (y 1).val) :
    k0_pay4 (F := Ideal) x0 x3 x5 x4 x6 x1 y = scalarMsg sg el w1 b1 w2 b2 i := by
  subst e3 e4 e5 e6
  obtain ⟨p, q, rfl⟩ : ∃ (p : Fin 2000) (q : Fin 64), y = ix2 p q := ⟨y 0, y 1, eq_ix2 y⟩
  obtain ⟨e, q', rfl⟩ : ∃ (e : Fin 500000) (q' : Fin 64), i = ix2 e q' := ⟨i 0, i 1, eq_ix2 i⟩
  have he : e.val = T * 2000 + p.val := hi0
  obtain rfl : q' = q := Fin.ext hi1
  rw [pay4_apply, scalarMsg_apply, h1 p q' e he]
  refine congrArg (sg (ix2 e q') * ·) ?_
  exact congrArg (fun xr => weight xr x3 x4 x5 x6 q') (funext fun l => h0 p l e he)

/-- The vector-message payload of such a block, likewise. -/
theorem block12 (x0 : Vec Ideal S2000x32 .f32) (x2 : Vec Ideal S2000x3x64 .f32) (x7 : Vec Ideal S32x64 .f32)
    (x8 : Vec Ideal S64 .f32) (x9 : Vec Ideal S64x64 .f32) (x10 : Vec Ideal S64 .f32)
    (vg : S500000x3x64.Idx → EReal) (el : S500000x32.Idx → EReal)
    (w1 : S32x64.Idx → EReal) (b1 : S64.Idx → EReal) (w2 : S64x64.Idx → EReal) (b2 : S64.Idx → EReal)
    (e7 : x7 = w1) (e8 : x8 = b1) (e9 : x9 = w2) (e10 : x10 = b2) (T : ℕ)
    (h0 : ∀ (p : Fin 2000) (l : Fin 32) (e : Fin 500000), e.val = T * 2000 + p.val → x0 (ix2 p l) = el (ix2 e l))
    (h2 : ∀ (p : Fin 2000) (r : Fin 3) (q : Fin 64) (e : Fin 500000), e.val = T * 2000 + p.val →
      x2 (ix3 p r q) = vg (ix3 e r q))
    (y : S2000x3x64.Idx) (i : S500000x3x64.Idx) (hi0 : (i 0).val = T * 2000 + (y 0).val) (hi1 : (i 1).val = (y 1).val)
    (hi2 : (i 2).val = (y 2).val) :
    k0_pay1 (F := Ideal) (k0_pay3 x0 x7 x9 x8 x10) x2 y = vectorMsg vg el w1 b1 w2 b2 i := by
  subst e7 e8 e9 e10
  obtain ⟨p, r, q, rfl⟩ : ∃ (p : Fin 2000) (r : Fin 3) (q : Fin 64), y = ix3 p r q := ⟨y 0, y 1, y 2, eq_ix3 y⟩
  obtain ⟨e, r', q', rfl⟩ : ∃ (e : Fin 500000) (r' : Fin 3) (q' : Fin 64), i = ix3 e r' q' := ⟨i 0, i 1, i 2, eq_ix3 i⟩
  have he : e.val = T * 2000 + p.val := hi0
  obtain rfl : r' = r := Fin.ext hi1
  obtain rfl : q' = q := Fin.ext hi2
  rw [pay1_apply, pay3_apply, vectorMsg_apply, h2 p r' q' e he]
  refine congrArg (vg (ix3 e r' q') * ·) ?_
  exact congrArg (fun xr => weight xr x7 x8 x9 x10 q') (funext fun l => h0 p l e he)

/-- WHAT POINT t WRITES BACK through the first output window is block t of the scalar messages. -/
theorem flushed11_eq (c : Dev nD) (t : Fin cfg0.N) :
    (dats (F := Ideal) m 0 c).flushed 11 t = ((cfg0.win 11).blk t).view.read (Elt Ideal)
      (scalarMsg (V m c main_v10) (V m c main_arg3) (V m c main_arg5) (V m c main_arg6) (V m c main_arg7) (V m c main_arg8)) := by
  show (cfg0.win 11).cut (grid0.coords t) ((dats m 0 c).after 11 t) = _
  rw [after0_11]
  unfold out0_11
  rw [View.canon_unit_zero hz2]
  simp only [View.ld_unit_zero (S := S2000x32) hz2, View.ld_unit_zero (S := S32x64) hz2, View.ld_unit_zero (S := S64x64) hz2,
    View.ld_unit_zero (S := S64) hz1, View.ld_unit_zero (S := S2000x64) hz2]
  obtain ⟨-, -, -, -, -, -, -, h0, h1, -⟩ := idx_rows t
  funext y
  refine block11 (iblk m c 0 t) (iblk m c 1 t) (iblk m c 3 t) (iblk m c 4 t) (iblk m c 5 t) (iblk m c 6 t)
    (V m c main_v10) (V m c main_arg3) (V m c main_arg5) (V m c main_arg6) (V m c main_arg7) (V m c main_arg8)
    (blk3_eq m c t) (blk4_eq m c t) (blk5_eq m c t) (blk6_eq m c t) t.val
    (fun p l e he => blk0_apply m c t p l e he) (fun p q e he => blk1_apply m c t p q e he)
    y (((cfg0.win 11).blk t).view.emb y) ?_ ?_
  · show win0_11.index t (0 : Fin 2) * 2000 + 1 * (y 0).val = t.val * 2000 + (y 0).val
    rw [h0]; omega
  · show win0_11.index t (1 : Fin 2) * 64 + 1 * (y 1).val = (y 1).val
    rw [h1]; omega

/-- WHAT POINT t WRITES BACK through the second output window is block t of the vector messages. -/
theorem flushed12_eq (c : Dev nD) (t : Fin cfg0.N) :
    (dats (F := Ideal) m 0 c).flushed 12 t = ((cfg0.win 12).blk t).view.read (Elt Ideal)
      (vectorMsg (V m c main_v17) (V m c main_arg3) (V m c main_arg9) (V m c main_arg10) (V m c main_arg11) (V m c main_arg12)) := by
  show (cfg0.win 12).cut (grid0.coords t) ((dats m 0 c).after 12 t) = _
  rw [after0_12]
  unfold out0_12
  rw [View.canon_unit_zero hz3]
  simp only [View.ld_unit_zero (S := S2000x32) hz2, View.ld_unit_zero (S := S32x64) hz2, View.ld_unit_zero (S := S64x64) hz2,
    View.ld_unit_zero (S := S64) hz1, View.ld_unit_zero (S := S2000x3x64) hz3]
  obtain ⟨-, -, -, -, -, -, -, -, -, h0, h1, h2⟩ := idx_rows t
  funext y
  refine block12 (iblk m c 0 t) (iblk m c 2 t) (iblk m c 7 t) (iblk m c 8 t) (iblk m c 9 t) (iblk m c 10 t)
    (V m c main_v17) (V m c main_arg3) (V m c main_arg9) (V m c main_arg10) (V m c main_arg11) (V m c main_arg12)
    (blk7_eq m c t) (blk8_eq m c t) (blk9_eq m c t) (blk10_eq m c t) t.val
    (fun p l e he => blk0_apply m c t p l e he) (fun p r q e he => blk2_apply m c t p r q e he)
    y (((cfg0.win 12).blk t).view.emb y) ?_ ?_ ?_
  · show win0_12.index t (0 : Fin 3) * 2000 + 1 * (y 0).val = t.val * 2000 + (y 0).val
    rw [h0]; omega
  · show win0_12.index t (1 : Fin 3) * 3 + 1 * (y 1).val = (y 1).val
    rw [h1]; omega
  · show win0_12.index t (2 : Fin 3) * 64 + 1 * (y 2).val = (y 2).val
    rw [h2]; omega

/-! ## The blocks tile the arrays -/

/-- An index of the scalar-message array is in point t's block iff each coordinate is in the block's range. -/
theorem mem_blk11 (t : Fin cfg0.N) (i : S500000x64.Idx) :
    i ∈ ((cfg0.win 11).blk t).view.set ↔ ∀ a : Fin 2, win0_11.index t a * S2000x64.size a ≤ (i a).val
      ∧ (i a).val < win0_11.index t a * S2000x64.size a + S2000x64.size a := by
  show i ∈ ((View.whole main_v18_0).slice (win0_11.rect t)).set ↔ _
  rw [View.set_slice_whole, Rect.mem_set_unit]
  exact Iff.rfl

theorem mem_blk12 (t : Fin cfg0.N) (i : S500000x3x64.Idx) :
    i ∈ ((cfg0.win 12).blk t).view.set ↔ ∀ a : Fin 3, win0_12.index t a * S2000x3x64.size a ≤ (i a).val
      ∧ (i a).val < win0_12.index t a * S2000x3x64.size a + S2000x3x64.size a := by
  show i ∈ ((View.whole main_v18_1).slice (win0_12.rect t)).set ↔ _
  rw [View.set_slice_whole, Rect.mem_set_unit]
  exact Iff.rfl

/-- THE SCALAR-MESSAGE ARRAY after the region: edge e lies in the block of point e / 2000. -/
theorem final11 (c : Dev nD) : (dats (F := Ideal) m 0 c).arrAt 11 cfg0.N
    = scalarMsg (V m c main_v10) (V m c main_arg3) (V m c main_arg5) (V m c main_arg6) (V m c main_arg7) (V m c main_arg8) :=
  (dats m 0 c).arrAt_eq_of_cover 11 _ (fun t _ => flushed11_eq m c t) fun i => by
    have hN : cfg0.N = 250 := N_0
    have hi0 : (i 0).val < 500000 := (i 0).isLt
    have hi1 : (i 1).val < 64 := (i 1).isLt
    have ht : (i 0).val / 2000 < cfg0.N := by rw [hN]; omega
    obtain ⟨-, -, -, -, -, -, -, h0, h1, -⟩ := idx_rows ⟨(i 0).val / 2000, ht⟩
    refine ⟨⟨(i 0).val / 2000, ht⟩, flush0_11 _, ?_⟩
    rw [mem_blk11]
    intro a
    match a with
    | ⟨0, _⟩ =>
      show win0_11.index ⟨(i 0).val / 2000, ht⟩ (0 : Fin 2) * 2000 ≤ (i 0).val
        ∧ (i 0).val < win0_11.index ⟨(i 0).val / 2000, ht⟩ (0 : Fin 2) * 2000 + 2000
      rw [h0]
      show (i 0).val / 2000 * 2000 ≤ (i 0).val ∧ (i 0).val < (i 0).val / 2000 * 2000 + 2000
      omega
    | ⟨1, _⟩ =>
      show win0_11.index ⟨(i 0).val / 2000, ht⟩ (1 : Fin 2) * 64 ≤ (i 1).val
        ∧ (i 1).val < win0_11.index ⟨(i 0).val / 2000, ht⟩ (1 : Fin 2) * 64 + 64
      rw [h1]; omega

/-- THE VECTOR-MESSAGE ARRAY after the region, likewise. -/
theorem final12 (c : Dev nD) : (dats (F := Ideal) m 0 c).arrAt 12 cfg0.N
    = vectorMsg (V m c main_v17) (V m c main_arg3) (V m c main_arg9) (V m c main_arg10) (V m c main_arg11) (V m c main_arg12) :=
  (dats m 0 c).arrAt_eq_of_cover 12 _ (fun t _ => flushed12_eq m c t) fun i => by
    have hN : cfg0.N = 250 := N_0
    have hi0 : (i 0).val < 500000 := (i 0).isLt
    have hi1 : (i 1).val < 3 := (i 1).isLt
    have hi2 : (i 2).val < 64 := (i 2).isLt
    have ht : (i 0).val / 2000 < cfg0.N := by rw [hN]; omega
    obtain ⟨-, -, -, -, -, -, -, -, -, h0, h1, h2⟩ := idx_rows ⟨(i 0).val / 2000, ht⟩
    refine ⟨⟨(i 0).val / 2000, ht⟩, flush0_12 _, ?_⟩
    rw [mem_blk12]
    intro a
    match a with
    | ⟨0, _⟩ =>
      show win0_12.index ⟨(i 0).val / 2000, ht⟩ (0 : Fin 3) * 2000 ≤ (i 0).val
        ∧ (i 0).val < win0_12.index ⟨(i 0).val / 2000, ht⟩ (0 : Fin 3) * 2000 + 2000
      rw [h0]
      show (i 0).val / 2000 * 2000 ≤ (i 0).val ∧ (i 0).val < (i 0).val / 2000 * 2000 + 2000
      omega
    | ⟨1, _⟩ =>
      show win0_12.index ⟨(i 0).val / 2000, ht⟩ (1 : Fin 3) * 3 ≤ (i 1).val
        ∧ (i 1).val < win0_12.index ⟨(i 0).val / 2000, ht⟩ (1 : Fin 3) * 3 + 3
      rw [h1]; omega
    | ⟨2, _⟩ =>
      show win0_12.index ⟨(i 0).val / 2000, ht⟩ (2 : Fin 3) * 64 ≤ (i 2).val
        ∧ (i 2).val < win0_12.index ⟨(i 0).val / 2000, ht⟩ (2 : Fin 3) * 64 + 64
      rw [h2]; omega

end Cert.KernelIdeal.Arrays

end
-- ==== Proof.KernelRun.lean ====
/-
  The kernel's whole run. After the region the program scatter-adds the two message arrays into zero arrays, row e
  of the messages onto the row named by the edge's destination node. Those last operations read the message arrays
  where the region left them and the destination column where the operations before the region left it, so each
  result is the scatter-add of the specification's messages, and the thirteen arguments end as they started.
-/
import proofs.«131653_j7275674599931_2_alg».proof.Proof.KernelArrays
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Run

open Cert.KernelIdeal Cert.KernelIdeal.Gen Cert.KernelIdeal.Arrays Cert.EdgeWeight

variable (m : (ℓ : Loc nD τ sig) → Buf (Elt Ideal) ℓ) (ρ : Dev nD → PrngReg)

/-- The scalar result: the scalar messages summed onto their destination rows, from zero. -/
def outScalar (c : Dev nD) : Buf (Elt Ideal) ((c.tc : Thread nD τ).loc main_v21) :=
  Host.scatterAdd scatter_S50000x64_S500000x1_S500000x64_1_0_0_1
    (broadcastInDim S50000x64 ![] bcast_S_S50000x64 (constant (F := Ideal) S_ .f32 0x00000000#32))
    (broadcastInDim S500000x1 ![0] bcast_S500000_S500000x1_0 (V m c main_v1))
    (scalarMsg (V m c main_v10) (V m c main_arg3) (V m c main_arg5) (V m c main_arg6) (V m c main_arg7) (V m c main_arg8))

/-- The vector result: the vector messages summed onto their destination rows, from zero. -/
def outVector (c : Dev nD) : Buf (Elt Ideal) ((c.tc : Thread nD τ).loc main_v24) :=
  Host.scatterAdd scatter_S50000x3x64_S500000x1_S500000x3x64_12_0_0_1
    (broadcastInDim S50000x3x64 ![] bcast_S_S50000x3x64 (constant (F := Ideal) S_ .f32 0x00000000#32))
    (broadcastInDim S500000x1 ![0] bcast_S500000_S500000x1_0 (V m c main_v1))
    (vectorMsg (V m c main_v17) (V m c main_arg3) (V m c main_arg9) (V m c main_arg10) (V m c main_arg11) (V m c main_arg12))

/-- What the operations after the region leave in the scalar result buffer. -/
theorem tail_scalar (c : Dev nD) :
    Pipeline.afterTail₀ cfgs (dats (F := Ideal) m) 0 (V0 m) [hostOps1] c main_v21 = outScalar m c := by
  have e11 : Pipeline.withArrays (cfgs 0).spec c (V0 m c) (fun w => (dats m 0 c).arrAt w (cfgs 0).N) (Proc.devRef .tc main_v18_0)
      = (dats m 0 c).arrAt 11 cfg0.N :=
    Pipeline.withArrays_arr spec0 launch0.win.arr_inj c (V0 m c) (fun w => (dats m 0 c).arrAt w cfg0.N) 11
  have e1 : Pipeline.withArrays (cfgs 0).spec c (V0 m c) (fun w => (dats m 0 c).arrAt w (cfgs 0).N) (Proc.devRef .tc main_v1)
      = V m c main_v1 :=
    Pipeline.withArrays_of_ne spec0 c (V0 m c) _ main_v1 (by exact (by decide : ∀ w, Pipeline.arrRef spec0 w ≠ main_v1))
  unfold Pipeline.afterTail₀ outScalar
  show StableHlo.after hostOps1 _ (Proc.devRef .tc main_v21) = _
  after_results
  rw [e11, e1, final11]

/-- What they leave in the vector result buffer. -/
theorem tail_vector (c : Dev nD) :
    Pipeline.afterTail₀ cfgs (dats (F := Ideal) m) 0 (V0 m) [hostOps1] c main_v24 = outVector m c := by
  have e12 : Pipeline.withArrays (cfgs 0).spec c (V0 m c) (fun w => (dats m 0 c).arrAt w (cfgs 0).N) (Proc.devRef .tc main_v18_1)
      = (dats m 0 c).arrAt 12 cfg0.N :=
    Pipeline.withArrays_arr spec0 launch0.win.arr_inj c (V0 m c) (fun w => (dats m 0 c).arrAt w cfg0.N) 12
  have e1 : Pipeline.withArrays (cfgs 0).spec c (V0 m c) (fun w => (dats m 0 c).arrAt w (cfgs 0).N) (Proc.devRef .tc main_v1)
      = V m c main_v1 :=
    Pipeline.withArrays_of_ne spec0 c (V0 m c) _ main_v1 (by exact (by decide : ∀ w, Pipeline.arrRef spec0 w ≠ main_v1))
  unfold Pipeline.afterTail₀ outVector
  show StableHlo.after hostOps1 _ (Proc.devRef .tc main_v24) = _
  after_results
  rw [e12, e1, final12]

/-- The run, read: every weakly fair execution ends with the two results at the scatter-adds of the messages and the
    arguments unchanged. -/
theorem run : θ_run defs (onTc (τ := τ) (main (F := Ideal))) ⟨m, fun _ => 0, ρ⟩ fun r => ∀ c : Dev nD,
      r.2.mem ((c.tc : Thread nD τ).loc main_v21) = outScalar m c
      ∧ r.2.mem ((c.tc : Thread nD τ).loc main_v24) = outVector m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨
      ((h c).2 main_v21 (Pipeline.mem_restRefs_of main_v21 (by decide) (by decide))).trans (tail_scalar m c),
      ((h c).2 main_v24 (Pipeline.mem_restRefs_of main_v24 (by decide) (by decide))).trans (tail_vector m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 0).trans (((dats m 0 c).arrAt_in 0 rfl _).trans ((A_eq m c 0).trans (V_main_arg3 m c))),
      (((h c).2 main_arg4 (Pipeline.mem_restRefs_of main_arg4 (by decide) (by decide))).trans (W_main_arg4 m (dats m) c)),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c))),
      ((h c).1 6).trans (((dats m 0 c).arrAt_in 6 rfl _).trans ((A_eq m c 6).trans (V_main_arg8 m c))),
      ((h c).1 7).trans (((dats m 0 c).arrAt_in 7 rfl _).trans ((A_eq m c 7).trans (V_main_arg9 m c))),
      ((h c).1 8).trans (((dats m 0 c).arrAt_in 8 rfl _).trans ((A_eq m c 8).trans (V_main_arg10 m c))),
      ((h c).1 9).trans (((dats m 0 c).arrAt_in 9 rfl _).trans ((A_eq m c 9).trans (V_main_arg11 m c))),
      ((h c).1 10).trans (((dats m 0 c).arrAt_in 10 rfl _).trans ((A_eq m c 10).trans (V_main_arg12 m c)))⟩)
    (run_main m ρ)

end Cert.KernelIdeal.Run

end
-- ==== Proof.RefStages.lean ====
/-
  The reference's stages read entry by entry: the weights it computes for all 500000 edges at once hold, at
  (e, q), the weight edge e puts on channel q — the same function of row e of the radial-basis array as in the
  specification —, for the scalar and for the vector network alike; and the weights laid out for the vector messages
  hold that value at each of the three components.
-/
import proofs.«131653_j7275674599931_2_alg».proof.Proof.Gen.ReferenceIdeal.Read
import proofs.«131653_j7275674599931_2_alg».proof.Proof.EdgeWeight
import Idealize.ShloMosaic.Lib.ValueIdx
import Idealize.ShloMosaic.PureOps.Ideal.Laws

noncomputable section

open scoped BigOperators

namespace Cert.ReferenceIdeal.Stages

open Cert.ReferenceIdeal Cert.ReferenceIdeal.Gen Cert.ReferenceIdeal.Read
open Idealize.ShloMosaic Idealize.ShloMosaic.ValueIdx Cert.EdgeWeight

/-- The first layer before its activation, at (e, k): row e of the radial-basis array times column k of the
    weights, plus the bias of column k. -/
theorem preact_apply (x3 : FVec Ideal S500000x32 .f32) (x5 : FVec Ideal S32x64 .f32) (x6 : FVec Ideal S64 .f32)
    (e : Fin 500000) (k : Fin 64) :
    val_main_v7 (F := Ideal) x3 x5 x6 (ix2 e k) = (∑ l : Fin 32, x3 (ix2 e l) * x5 (ix2 l k)) + x6 (ix1 k) := by
  rw [val_main_v7_apply, val_main_v4_apply, val_main_v6_apply, val_main_v5_apply]
  have hl : ∀ l : Fin 32, lidx_main_v4 (ix2 e k) l = ix2 e l := fun l => funext fun a => by
    match a with
    | ⟨0, _⟩ => rfl
    | ⟨1, _⟩ => rfl
  have hr : ∀ l : Fin 32, ridx_main_v4 (ix2 e k) l = ix2 l k := fun l => funext fun a => by
    match a with
    | ⟨0, _⟩ => rfl
    | ⟨1, _⟩ => rfl
  have hb : idx_main_v5 (idx_main_v6 (ix2 e k)) = ix1 k := funext fun a => by
    match a with
    | ⟨0, _⟩ => rfl
  simp only [hl, hr, hb]
  rfl

/-- The hidden layer at (e, k): the activation, spelt by the reference with a quotient, a sum and an exponential, of
    the first layer. -/
theorem hidden_apply (x3 : FVec Ideal S500000x32 .f32) (x5 : FVec Ideal S32x64 .f32) (x6 : FVec Ideal S64 .f32)
    (e : Fin 500000) (k : Fin 64) :
    val_main_v8 (F := Ideal) x3 x5 x6 (ix2 e k) = hiddenUnit (fun l => x3 (ix2 e l)) x5 x6 k := by
  rw [val_main_v8_apply, val_main_call0_v5_apply, val_main_call0_v4_apply, val_main_call0_cst_0_apply,
    val_main_call0_v3_apply, val_main_call0_v2_apply, val_main_call0_cst_apply, val_main_call0_v1_apply,
    val_main_call0_v0_apply, preact_apply]
  exact silu_spelt _

/-- The scalar network's weights at (e, q). -/
theorem weight_apply (x3 : FVec Ideal S500000x32 .f32) (x5 : FVec Ideal S32x64 .f32) (x6 : FVec Ideal S64 .f32)
    (x7 : FVec Ideal S64x64 .f32) (x8 : FVec Ideal S64 .f32) (e : Fin 500000) (q : Fin 64) :
    val_main_v12 (F := Ideal) x3 x5 x6 x7 x8 (ix2 e q) = weight (fun l => x3 (ix2 e l)) x5 x6 x7 x8 q := by
  rw [val_main_v12_apply, val_main_v9_apply, val_main_v11_apply, val_main_v10_apply]
  have hl : ∀ k : Fin 64, lidx_main_v9 (ix2 e q) k = ix2 e k := fun k => funext fun a => by
    match a with
    | ⟨0, _⟩ => rfl
    | ⟨1, _⟩ => rfl
  have hr : ∀ k : Fin 64, ridx_main_v9 (ix2 e q) k = ix2 k q := fun k => funext fun a => by
    match a with
    | ⟨0, _⟩ => rfl
    | ⟨1, _⟩ => rfl
  have hb : idx_main_v10 (idx_main_v11 (ix2 e q)) = ix1 q := funext fun a => by
    match a with
    | ⟨0, _⟩ => rfl
  simp only [hl, hr, hb, hidden_apply]
  rfl

/-- The vector network is the same chain of operations on its own weights and biases. -/
theorem weight_vec_eq (x3 : FVec Ideal S500000x32 .f32) (x9 : FVec Ideal S32x64 .f32) (x10 : FVec Ideal S64 .f32)
    (x11 : FVec Ideal S64x64 .f32) (x12 : FVec Ideal S64 .f32) :
    val_main_v32 (F := Ideal) x3 x9 x10 x11 x12 = val_main_v12 (F := Ideal) x3 x9 x10 x11 x12 := rfl

/-- The vector network's weights, laid out over the three components, at (e, r, q): the weight edge e puts on channel q. -/
theorem weight_spread_apply (x3 : FVec Ideal S500000x32 .f32) (x9 : FVec Ideal S32x64 .f32) (x10 : FVec Ideal S64 .f32)
    (x11 : FVec Ideal S64x64 .f32) (x12 : FVec Ideal S64 .f32) (e : Fin 500000) (r : Fin 3) (q : Fin 64) :
    val_main_v41 (F := Ideal) x3 x9 x10 x11 x12 (ix3 e r q) = weight (fun l => x3 (ix2 e l)) x9 x10 x11 x12 q := by
  rw [val_main_v41_apply, val_main_v40_apply, weight_vec_eq]
  have hi : idx_main_v40 (idx_main_v41 (ix3 e r q)) = ix2 e q := funext fun a => by
    match a with
    | ⟨0, _⟩ => rfl
    | ⟨1, _⟩ => rfl
  rw [hi]
  exact weight_apply x3 x9 x10 x11 x12 e q

end Cert.ReferenceIdeal.Stages

end
-- ==== Proof.Bridge.lean ====
/-
  The two programs meet. Before its region the kernel's program computes the destination column, the source column
  and the two gathers with the very operations the reference uses, so the arrays the region finds are the reference's
  stages of the same arguments; the specification's messages are the reference's message stages, entry by entry, since
  both are the gathered feature times the edge's weight; and the closing scatter-adds are the same operation applied
  to equal arrays. Hence each result of the kernel's program is the reference's result.
-/
import proofs.«131653_j7275674599931_2_alg».proof.Proof.KernelRun
import proofs.«131653_j7275674599931_2_alg».proof.Proof.RefStages
import proofs.«131653_j7275674599931_2_alg».proof.Proof.LibByCoords
import Idealize.ShloMosaic.Lib.StableHlo.Run

noncomputable section

open Idealize.ShloMosaic Idealize.ShloMosaic.TcCoe Idealize.SL.Sem Idealize.ShloMosaic.StableHlo

namespace Cert.Bridge

open Idealize.ShloMosaic.ValueIdx Cert.EdgeWeight
open Cert.ReferenceIdeal.Read Cert.ReferenceIdeal.Stages

variable (m : (ℓ : Loc Cert.KernelIdeal.nD Cert.KernelIdeal.τ Cert.KernelIdeal.sig) → Buf (Elt Ideal) ℓ)

/-! ## The arrays the region finds are the reference's stages -/

/-- The destination nodes: row 0 of the edge list as a vector. -/
theorem dest_eq (c : Dev Cert.KernelIdeal.nD) :
    Cert.KernelIdeal.Gen.V m c Cert.KernelIdeal.main_v1 = val_main_v1 (F := Ideal) (m ((c.tc : Thread Cert.KernelIdeal.nD Cert.KernelIdeal.τ).loc Cert.KernelIdeal.main_arg4)) := by
  show StableHlo.after Cert.KernelIdeal.Gen.hostOps0 (fun b => m (c, b)) (Proc.devRef .tc Cert.KernelIdeal.main_v1) = _
  after_results
  rfl

/-- The scalar features gathered at the edges' source nodes. -/
theorem gathered_scalar_eq (c : Dev Cert.KernelIdeal.nD) :
    Cert.KernelIdeal.Gen.V m c Cert.KernelIdeal.main_v10 = val_main_v19 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) := by
  show StableHlo.after Cert.KernelIdeal.Gen.hostOps0 (fun b => m (c, b)) (Proc.devRef .tc Cert.KernelIdeal.main_v10) = _
  after_results
  rfl

/-- The vector features gathered at the edges' source nodes. -/
theorem gathered_vector_eq (c : Dev Cert.KernelIdeal.nD) :
    Cert.KernelIdeal.Gen.V m c Cert.KernelIdeal.main_v17 = val_main_v39 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) := by
  show StableHlo.after Cert.KernelIdeal.Gen.hostOps0 (fun b => m (c, b)) (Proc.devRef .tc Cert.KernelIdeal.main_v17) = _
  after_results_simp
  rfl

/-! ## The messages are the reference's message stages -/

/-- Scalar messages: gathered scalar feature times the edge's weight, at every (e, q). -/
theorem msg_scalar_eq (x0 : FVec Ideal Cert.ReferenceIdeal.S50000x64 .f32) (x3 : FVec Ideal Cert.ReferenceIdeal.S500000x32 .f32)
    (x4 : (⟨Cert.ReferenceIdeal.S2x500000, .i32⟩ : BufTy).Contents (Elt Ideal)) (x5 : FVec Ideal Cert.ReferenceIdeal.S32x64 .f32)
    (x6 : FVec Ideal Cert.ReferenceIdeal.S64 .f32) (x7 : FVec Ideal Cert.ReferenceIdeal.S64x64 .f32) (x8 : FVec Ideal Cert.ReferenceIdeal.S64 .f32) :
    scalarMsg (val_main_v19 (F := Ideal) x0 x4) x3 x5 x6 x7 x8 = val_main_v20 (F := Ideal) x0 x3 x4 x5 x6 x7 x8 :=
  Cert.LibByCoords.ext2 (n0 := 500000) (n1 := 64) fun e q => by
    rw [scalarMsg_apply, val_main_v20_apply, weight_apply]
    rfl

/-- Vector messages: each component of the gathered vector feature times the edge's weight, at every (e, r, q). -/
theorem msg_vector_eq (x1 : FVec Ideal Cert.ReferenceIdeal.S50000x3x64 .f32) (x3 : FVec Ideal Cert.ReferenceIdeal.S500000x32 .f32)
    (x4 : (⟨Cert.ReferenceIdeal.S2x500000, .i32⟩ : BufTy).Contents (Elt Ideal)) (x9 : FVec Ideal Cert.ReferenceIdeal.S32x64 .f32)
    (x10 : FVec Ideal Cert.ReferenceIdeal.S64 .f32) (x11 : FVec Ideal Cert.ReferenceIdeal.S64x64 .f32) (x12 : FVec Ideal Cert.ReferenceIdeal.S64 .f32) :
    vectorMsg (val_main_v39 (F := Ideal) x1 x4) x3 x9 x10 x11 x12 = val_main_v42 (F := Ideal) x1 x3 x4 x9 x10 x11 x12 :=
  Cert.LibByCoords.ext3 (n0 := 500000) (n1 := 3) (n2 := 64) fun e r q => by
    rw [vectorMsg_apply, val_main_v42_apply, weight_spread_apply]
    rfl

/-! ## The results -/

/-- The kernel's scalar result is the reference's. -/
theorem outScalar_eq (c : Dev Cert.KernelIdeal.nD) :
    Cert.KernelIdeal.Run.outScalar m c
      = val_main_v23 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  unfold Cert.KernelIdeal.Run.outScalar
  rw [dest_eq, gathered_scalar_eq, Cert.KernelIdeal.Gen.V_main_arg3, Cert.KernelIdeal.Gen.V_main_arg5,
    Cert.KernelIdeal.Gen.V_main_arg6, Cert.KernelIdeal.Gen.V_main_arg7, Cert.KernelIdeal.Gen.V_main_arg8]
  rw [msg_scalar_eq]
  rfl

/-- The kernel's vector result is the reference's. -/
theorem outVector_eq (c : Dev Cert.KernelIdeal.nD) :
    Cert.KernelIdeal.Run.outVector m c
      = val_main_v45 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  unfold Cert.KernelIdeal.Run.outVector
  rw [dest_eq, gathered_vector_eq, Cert.KernelIdeal.Gen.V_main_arg3, Cert.KernelIdeal.Gen.V_main_arg9,
    Cert.KernelIdeal.Gen.V_main_arg10, Cert.KernelIdeal.Gen.V_main_arg11, Cert.KernelIdeal.Gen.V_main_arg12]
  rw [msg_vector_eq]
  rfl

end Cert.Bridge

end
-- ==== Proof.lean ====
/- One round of message passing over a graph of 50000 nodes and 500000 directed edges. Every edge carries 32 radial-basis
   values; a two-layer network x ↦ silu(x·W₁ + b₁)·W₂ + b₂, silu(z) = z·σ(z), turns them into one weight per feature
   channel, once with the scalar network's parameters and once with the vector network's. The scalar message of an edge
   is the scalar feature of its source node times the edge's scalar weight, channel by channel; the vector message is
   each of the three components of the source node's vector feature times the edge's vector weight. The results are the
   messages summed onto the edges' destination nodes.

   The kernel's program gathers the source features for all edges, forms the messages in 250 blocks of 2000 edges —
   each block's two networks as two matrix products into zero accumulators, the logistic function as one operation —
   and scatter-adds the two message arrays; the reference forms the weights for all edges at once, spells the logistic
   function as 1 / (1 + e^(-z)), and gathers, multiplies and scatter-adds in the same way. Over the extended reals these
   are one computation: an edge's weight depends on its own row of radial-basis values only, so the blocks are
   restrictions of the whole-array messages and tile them (Proof/KernelArrays.lean); a product into a zero
   accumulator is the plain sum the reference's product denotes, and the logistic function is, by definition, the
   reference's quotient at every extended real, infinite ones included (Proof/EdgeWeight.lean, Proof/KernelPayload.lean,
   Proof/RefStages.lean); the gathers and the scatter-adds are the same operations applied to equal arrays
   (Proof/KernelRun.lean, Proof/Bridge.lean). No sum is reordered and no law that needs finite values is used, so the
   precondition is never opened.

   The frames of the two kernel programs and the reference's run are the generated ones; the idealization rewrote no
   operation, so there is nothing to preserve. -/
import proofs.«131653_j7275674599931_2_alg».proof.Defs
import proofs.«131653_j7275674599931_2_alg».proof.Proof.Gen.Kernel
import proofs.«131653_j7275674599931_2_alg».proof.Proof.Gen.Kernel.Skeleton
import proofs.«131653_j7275674599931_2_alg».proof.Proof.Gen.Kernel.Launch
import proofs.«131653_j7275674599931_2_alg».proof.Proof.Gen.Kernel.Points
import proofs.«131653_j7275674599931_2_alg».proof.Proof.Gen.Kernel.Frame
import proofs.«131653_j7275674599931_2_alg».proof.Proof.Gen.KernelIdeal
import proofs.«131653_j7275674599931_2_alg».proof.Proof.Gen.KernelIdeal.Skeleton
import proofs.«131653_j7275674599931_2_alg».proof.Proof.Gen.KernelIdeal.Launch
import proofs.«131653_j7275674599931_2_alg».proof.Proof.Gen.KernelIdeal.Points
import proofs.«131653_j7275674599931_2_alg».proof.Proof.Gen.KernelIdeal.Frame
import proofs.«131653_j7275674599931_2_alg».proof.Proof.Gen.ReferenceIdeal
import proofs.«131653_j7275674599931_2_alg».proof.Proof.Gen.Pre_finite_inputs
import proofs.«131653_j7275674599931_2_alg».proof.Proof.Gen.ReferenceIdeal.Run
import proofs.«131653_j7275674599931_2_alg».proof.Proof.Gen.ReferenceIdeal.Read
import proofs.«131653_j7275674599931_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- And the reference: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the arguments both programs end with the messages summed onto their destination
    nodes: the kernel's results are the reference's result stages of the same arguments. -/
theorem algebraic : Cert.algebraic_KernelIdeal_ReferenceIdeal := by
  intro m ρ m' ρ' _ hagree
  refine ⟨fun c => Cert.KernelIdeal.Run.outScalar m c, fun c => Cert.KernelIdeal.Run.outVector m c,
    Cert.KernelIdeal.Run.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12⟩ := hagree c
  refine ⟨(h c).1.trans ?_, (h c).2.1.trans ?_, (h c).2.2⟩
  · refine (Cert.ReferenceIdeal.Read.val_main_v23_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))).trans ?_
    rw [a0, a3, a4, a5, a6, a7, a8]
    exact (Cert.Bridge.outScalar_eq m c).symm
  · refine (Cert.ReferenceIdeal.Read.val_main_v45_eq (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))).trans ?_
    rw [a1, a3, a4, a9, a10, a11, a12]
    exact (Cert.Bridge.outVector_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
